-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x2048 : Shape := ⟨4, ![2, 16, 2048, 2048]⟩
abbrev S16x4096 : Shape := ⟨2, ![16, 4096]⟩
abbrev S_ : Shape := ⟨0, ![]⟩

class Facts : Prop where
  bcast_S_S2x16x2048x2048 : S_.BroadcastsInDim S2x16x2048x2048 (![] : Fin 0 → Fin S2x16x2048x2048.rank)
  reducesTo_S2x16x2048x2048_S_d0_1_2_3 : S2x16x2048x2048.ReducesTo [0, 1, 2, 3] S_
  h_S_ : 0 < S_.numel
  bcast_S_S16x4096 : S_.BroadcastsInDim S16x4096 (![] : Fin 0 → Fin S16x4096.rank)
  reducesTo_S16x4096_S_d0_1 : S16x4096.ReducesTo [0, 1] S_

variable [Facts]

def fn {F : FTy → Type} [FloatOps F] (main_arg0 : FVec F S2x16x2048x2048 .f32) (main_arg1 : FVec F S16x4096 .f32) : IVec S_ 1 :=
  let main_v0 : FVec F S2x16x2048x2048 .f32 := Host.absf main_arg0
  let main_cst : FVec F S_ .f32 := constant S_ .f32 0x7F800000#32
  let main_v1 : FVec F S2x16x2048x2048 .f32 := broadcastInDim S2x16x2048x2048 ![] bcast_S_S2x16x2048x2048 main_cst
  let main_v2 : IVec S2x16x2048x2048 1 := cmpf .olt main_v0 main_v1
  let main_c : IVec S_ 1 := constantI S_ 1 1#1
  let main_v3 : IVec S_ 1 := (fun x v => Host.reduce IntOp.andi x v reducesTo_S2x16x2048x2048_S_d0_1_2_3 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  main_v8
-- ==== Kernel.lean ====
abbrev S2x16x2048x2048 : Shape := ⟨4, ![2, 16, 2048, 2048]⟩
abbrev S16x4096 : Shape := ⟨2, ![16, 4096]⟩
abbrev S16x2048 : Shape := ⟨2, ![16, 2048]⟩
abbrev S16x2047 : Shape := ⟨2, ![16, 2047]⟩
abbrev S16x4095 : Shape := ⟨2, ![16, 4095]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S16x2048x2048 : Shape := ⟨3, ![16, 2048, 2048]⟩
abbrev S1x1x512x512 : Shape := ⟨4, ![1, 1, 512, 512]⟩
abbrev S1x512x512 : Shape := ⟨3, ![1, 512, 512]⟩
abbrev S512x512 : Shape := ⟨2, ![512, 512]⟩

abbrev nBuf : Space → Nat
  | .hbm => 45
  | .vmem => 6
  | .smem => 0
  | _ => 0

abbrev bufTy : (tb : Table) → Fin (tcTables nBuf tb) → BufTy
  | .hbm, ⟨0, _⟩ => ⟨S2x16x2048x2048, .f32⟩
  | .hbm, ⟨1, _⟩ => ⟨S16x4096, .f32⟩
  | .hbm, ⟨2, _⟩ => ⟨S16x2048, .f32⟩
  | .hbm, ⟨3, _⟩ => ⟨S16x2048, .f32⟩
  | .hbm, ⟨4, _⟩ => ⟨S16x2047, .f32⟩
  | .hbm, ⟨5, _⟩ => ⟨S16x2047, .f32⟩
  | .hbm, ⟨6, _⟩ => ⟨S16x4095, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S2048x2048, .i32⟩
  | .hbm, ⟨42, _⟩ => ⟨S2048x2048x1, .i32⟩
  | .hbm, ⟨43, _⟩ => ⟨S16x2048x2048, .f32⟩
  | .hbm, ⟨44, _⟩ => ⟨S2x16x2048x2048, .f32⟩
  | .local _ .vmem, ⟨0, _⟩ => ⟨S1x1x512x512, .f32⟩
  | .local _ .vmem, ⟨1, _⟩ => ⟨S1x1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x1x512x512, .f32⟩
  | .local _ .vmem, ⟨5, _⟩ => ⟨S1x1x512x512, .f32⟩
  | _, _ => ⟨S2x16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call1_v0 : Ref sig .tc := ⟨.hbm, 14, rfl⟩
abbrev main_call1_c : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_1 : Ref sig .tc := ⟨.hbm, 21, rfl⟩
abbrev main_call1_v5 : Ref sig .tc := ⟨.hbm, 22, rfl⟩
abbrev main_call1_v6 : Ref sig .tc := ⟨.hbm, 23, rfl⟩
abbrev main_call1_c_2 : Ref sig .tc := ⟨.hbm, 24, rfl⟩
abbrev main_call1_v7 : Ref sig .tc := ⟨.hbm, 25, rfl⟩
abbrev main_call1_v8 : Ref sig .tc := ⟨.hbm, 26, rfl⟩
abbrev main_call1_c_3 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![16, 4, 4, 2], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg0.toNat, arg1.toNat, arg2.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, false]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

class Facts₀ : Prop where
  slices_S16x4096_S16x2048_0_0 : S16x4096.Slices ![0, 0] S16x2048
  slices_S16x4096_S16x2048_0_2048 : S16x4096.Slices ![0, 2048] S16x2048
  slices_S16x2048_S16x2047_0_1 : S16x2048.Slices ![0, 1] S16x2047
  concatenates_S16x2048_S16x2047_S16x4095_d1 : Shape.Concatenates [S16x2048, S16x2047] S16x4095 1
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x1x512x512 : S512x512.ShapeCasts S1x1x512x512
  gather_S16x4095_S2048x2048x1_S16x2048x2048_0_1_n_n_1_2_161_wf : GatherDims.WF S16x4095 S2048x2048x1 S16x2048x2048 [0] [1] [] [1] [] 2 ![16, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S2x16x2048x2048.size a
  hwx0_0 : ∀ i : grid0.Coords, EltTy.bits .f32 = 32 ∨ (Rect.block (s := S2x16x2048x2048) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S16x2048x2048.size a
  hwx0_1 : ∀ i : grid0.Coords, EltTy.bits .f32 = 32 ∨ (Rect.block (s := S16x2048x2048) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S2x16x2048x2048.size a
  hwx0_2 : ∀ i : grid0.Coords, EltTy.bits .f32 = 32 ∨ (Rect.block (s := S2x16x2048x2048) S1x1x512x512.size (cc0_transform_2 i) (hinb0_2 i)).WholeWords (EltTy.packing .f32)

variable [Facts₀]

def gather_S16x4095_S2048x2048x1_S16x2048x2048_0_1_n_n_1_2_161 : GatherDims S16x4095 S2048x2048x1 S16x2048x2048 where
  offsetDims := [0]
  collapsedSliceDims := [1]
  operandBatchingDims := []
  startIndicesBatchingDims := []
  startIndexMap := [1]
  indexVectorDim := 2
  sliceSizes := ![16, 1]
  wf := gather_S16x4095_S2048x2048x1_S16x2048x2048_0_1_n_n_1_2_161_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x16x2048x2048 : Shape := ⟨4, ![2, 16, 2048, 2048]⟩
abbrev S16x4096 : Shape := ⟨2, ![16, 4096]⟩
abbrev S16x2048 : Shape := ⟨2, ![16, 2048]⟩
abbrev S16x2047 : Shape := ⟨2, ![16, 2047]⟩
abbrev S16x4095 : Shape := ⟨2, ![16, 4095]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S16x2048x2048 : Shape := ⟨3, ![16, 2048, 2048]⟩
abbrev S1x16x2048x2048 : Shape := ⟨4, ![1, 16, 2048, 2048]⟩

abbrev nBuf : Space → Nat
  | .hbm => 47
  | .vmem => 0
  | .smem => 0
  | _ => 0

abbrev bufTy : (tb : Table) → Fin (tcTables nBuf tb) → BufTy
  | .hbm, ⟨0, _⟩ => ⟨S2x16x2048x2048, .f32⟩
  | .hbm, ⟨1, _⟩ => ⟨S16x4096, .f32⟩
  | .hbm, ⟨2, _⟩ => ⟨S16x2048, .f32⟩
  | .hbm, ⟨3, _⟩ => ⟨S16x2048, .f32⟩
  | .hbm, ⟨4, _⟩ => ⟨S16x2047, .f32⟩
  | .hbm, ⟨5, _⟩ => ⟨S16x2047, .f32⟩
  | .hbm, ⟨6, _⟩ => ⟨S16x4095, .f32⟩
  | .hbm, ⟨7, _⟩ => ⟨S2048, .i32⟩
  | .hbm, ⟨8, _⟩ => ⟨S1x2048, .i32⟩
  | .hbm, ⟨9, _⟩ => ⟨S2048x1, .i32⟩
  | .hbm, ⟨10, _⟩ => ⟨S2048x2048, .i32⟩
  | .hbm, ⟨11, _⟩ => ⟨S2048x2048, .i32⟩
  | .hbm, ⟨12, _⟩ => ⟨S2048x2048, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S_, .i32⟩
  | .hbm, ⟨25, _⟩ => ⟨S2048x2048, .i32⟩
  | .hbm, ⟨26, _⟩ => ⟨S2048x2048, .i1⟩
  | .hbm, ⟨27, _⟩ => ⟨S_, .i32⟩
  | .hbm, ⟨28, _⟩ => ⟨S_, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S2048x2048, .i32⟩
  | .hbm, ⟨33, _⟩ => ⟨S2048x2048, .i32⟩
  | .hbm, ⟨34, _⟩ => ⟨S2048x2048, .i32⟩
  | .hbm, ⟨35, _⟩ => ⟨S_, .i32⟩
  | .hbm, ⟨36, _⟩ => ⟨S2048x2048, .i32⟩
  | .hbm, ⟨37, _⟩ => ⟨S2048x2048, .i1⟩
  | .hbm, ⟨38, _⟩ => ⟨S_, .i32⟩
  | .hbm, ⟨39, _⟩ => ⟨S2048x2048, .i32⟩
  | .hbm, ⟨40, _⟩ => ⟨S2048x2048, .i32⟩
  | .hbm, ⟨41, _⟩ => ⟨S2048x2048, .i32⟩
  | .hbm, ⟨42, _⟩ => ⟨S2048x2048x1, .i32⟩
  | .hbm, ⟨43, _⟩ => ⟨S16x2048x2048, .f32⟩
  | .hbm, ⟨44, _⟩ => ⟨S1x16x2048x2048, .f32⟩
  | .hbm, ⟨45, _⟩ => ⟨S2x16x2048x2048, .f32⟩
  | .hbm, ⟨46, _⟩ => ⟨S2x16x2048x2048, .f32⟩
  | _, _ => ⟨S2x16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v11 : Ref sig .tc := ⟨.hbm, 34, rfl⟩
abbrev main_c_0 : Ref sig .tc := ⟨.hbm, 35, rfl⟩
abbrev main_v12 : Ref sig .tc := ⟨.hbm, 36, rfl⟩
abbrev main_v13 : Ref sig .tc := ⟨.hbm, 37, rfl⟩
abbrev main_c_1 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩

abbrev nD : Nat := 1
abbrev τ : Topo := Topo.v7x

variable {F : FTy → Type} [FloatOps F]

class Facts₀ : Prop where
  slices_S16x4096_S16x2048_0_0 : S16x4096.Slices ![0, 0] S16x2048
  slices_S16x4096_S16x2048_0_2048 : S16x4096.Slices ![0, 2048] S16x2048
  slices_S16x2048_S16x2047_0_1 : S16x2048.Slices ![0, 1] S16x2047
  concatenates_S16x2048_S16x2047_S16x4095_d1 : Shape.Concatenates [S16x2048, S16x2047] S16x4095 1
  bcast_S2048_S1x2048_1 : S2048.BroadcastsInDim S1x2048 (![1] : Fin 1 → Fin S1x2048.rank)
  bcast_S2048_S2048x1_0 : S2048.BroadcastsInDim S2048x1 (![0] : Fin 1 → Fin S2048x1.rank)
  bcast_S1x2048_S2048x2048_0_1 : S1x2048.BroadcastsInDim S2048x2048 (![0, 1] : Fin 2 → Fin S2048x2048.rank)
  bcast_S2048x1_S2048x2048_0_1 : S2048x1.BroadcastsInDim S2048x2048 (![0, 1] : Fin 2 → Fin S2048x2048.rank)
  bcast_S_S2048x2048 : S_.BroadcastsInDim S2048x2048 (![] : Fin 0 → Fin S2048x2048.rank)
  bcast_S2048x2048_S2048x2048x1_0_1 : S2048x2048.BroadcastsInDim S2048x2048x1 (![0, 1] : Fin 2 → Fin S2048x2048x1.rank)
  bcast_S16x2048x2048_S1x16x2048x2048_1_2_3 : S16x2048x2048.BroadcastsInDim S1x16x2048x2048 (![1, 2, 3] : Fin 3 → Fin S1x16x2048x2048.rank)
  bcast_S1x16x2048x2048_S2x16x2048x2048_0_1_2_3 : S1x16x2048x2048.BroadcastsInDim S2x16x2048x2048 (![0, 1, 2, 3] : Fin 4 → Fin S2x16x2048x2048.rank)
  gather_S16x4095_S2048x2048x1_S16x2048x2048_0_1_n_n_1_2_161_wf : GatherDims.WF S16x4095 S2048x2048x1 S16x2048x2048 [0] [1] [] [1] [] 2 ![16, 1]

variable [Facts₀]

def gather_S16x4095_S2048x2048x1_S16x2048x2048_0_1_n_n_1_2_161 : GatherDims S16x4095 S2048x2048x1 S16x2048x2048 where
  offsetDims := [0]
  collapsedSliceDims := [1]
  operandBatchingDims := []
  startIndicesBatchingDims := []
  startIndexMap := [1]
  indexVectorDim := 2
  sliceSizes := ![16, 1]
  wf := gather_S16x4095_S2048x2048x1_S16x2048x2048_0_1_n_n_1_2_161_wf

class Facts : Prop extends Facts₀ where

variable [Facts]
-- ==== Proof.Spec.lean ====
/-
  The function both programs compute, stated once over literal shapes.

  The output has one entry per (batch b, head h, row r, column s) with b < 2, h < 16, r, s < 2048.  Both programs
  first build, from the weight array alone, a table `T` with one entry per (head, row, column) — the Toeplitz
  table of relative-position weights — and then multiply: the output entry at (b, h, r, s) is the product of the
  input entry at (b, h, r, s) and the table entry at (h, r, s).  The table does not depend on the batch, so reading
  it means dropping the leading coordinate of the output index.
-/
import Idealize.ShloMosaic.PureOps

noncomputable section

namespace Cert.Urpe

open Idealize.ShloMosaic

/-- The output's shape: batch, head, row, column. -/
abbrev SOut : Shape := ⟨4, ![2, 16, 2048, 2048]⟩
/-- The table's shape: head, row, column. -/
abbrev STab : Shape := ⟨3, ![16, 2048, 2048]⟩

/-- The table entry an output entry is multiplied by: the output index without its batch coordinate. -/
def tabIdx (i : SOut.Idx) : STab.Idx := fun a => match a with
  | ⟨0, _⟩ => ⟨(i 1).val, by have h : (i 1).val < 16 := (i 1).isLt; show (i 1).val < 16; omega⟩
  | ⟨1, _⟩ => ⟨(i 2).val, by have h : (i 2).val < 2048 := (i 2).isLt; show (i 2).val < 2048; omega⟩
  | ⟨2, _⟩ => ⟨(i 3).val, by have h : (i 3).val < 2048 := (i 3).isLt; show (i 3).val < 2048; omega⟩

variable {F : FTy → Type} [FloatOps F]

/-- The input scaled entry by entry by the table: at (b, h, r, s) the product `a (b, h, r, s) · T (h, r, s)`. -/
def scaled (a : SOut.Idx → Elt F .f32) (T : STab.Idx → Elt F .f32) : SOut.Idx → Elt F .f32 :=
  fun i => FloatOps.mulf (a i) (T (tabIdx i))

theorem scaled_apply (a : SOut.Idx → Elt F .f32) (T : STab.Idx → Elt F .f32) (i : SOut.Idx) :
    scaled a T i = FloatOps.mulf (a i) (T (tabIdx i)) := rfl

end Cert.Urpe

end
-- ==== Proof.KernelBlocks.lean ====
/-
  The kernel's output array as one function of the arrays the region finds.

  The grid has one point per (head h, row tile p, column tile q, batch b), 16 · 4 · 4 · 2 = 512 points.  At such a
  point the body loads the 512 × 512 tile (p, q) of the input's plane (b, h) and the tile (p, q) of the table's
  plane h, multiplies them entry by entry, and stores the product, which is written back as the tile (p, q) of the
  output's plane (b, h).  So the block a point writes is a block of ONE function of the whole arrays — the input
  scaled by the table (`Cert.Urpe.scaled`) — and, as the tiles of all points fill the output, the output array
  ends holding that function.
-/
import proofs.«124580_j36807869726820_1_alg».proof.Proof.Gen.KernelIdeal.Value
import proofs.«124580_j36807869726820_1_alg».proof.Proof.Spec
import Idealize.ShloMosaic.Lib.Pipeline.Value

noncomputable section

namespace Cert.KernelIdeal.Tiles

open Cert.KernelIdeal Cert.KernelIdeal.Gen Idealize.ShloMosaic Idealize.ShloMosaic.TcCoe Idealize.SL.Sem
open Idealize.ShloMosaic.Pipeline (Dat)
open Cert.Urpe (scaled tabIdx)

variable {F : FTy → Type} [FloatOps F]
variable (m : (ℓ : Loc nD τ sig) → Buf (Elt F) ℓ) (ρ : Dev nD → PrngReg)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl

/-- What the body leaves in the output's staging buffer, entry by entry, for any two loaded tiles: at (0, 0, r, s)
    the product of the first tile's entry (0, 0, r, s) and the second's entry (0, r, s). -/
theorem tile_product (x0 : Vec F S1x1x512x512 .f32) (x1 : Vec F S1x512x512 .f32) (y : S1x1x512x512.Idx) :
    out0_2 x0 x1 y = FloatOps.mulf (x0 (Value.ix2_0 y)) (x1 (Value.ix2_1 y)) := by
  unfold out0_2
  simp only [View.ld_unit_zero (S := S1x1x512x512) zeros4, View.ld_unit_zero (S := S1x512x512) zeros3]
  exact Value.canon2_eq x0 x1 y

/-- The three windows' block indices at a grid point, decided over the 512 points: the input's tile is the
    output's, the table's tile is the output's without the batch coordinate, and each index is in range. -/
theorem tile_indices : ∀ t : Fin cfg0.N,
    win0_0.index t (0 : Fin 4) = win0_2.index t (0 : Fin 4)
    ∧ win0_0.index t (1 : Fin 4) = win0_2.index t (1 : Fin 4)
    ∧ win0_0.index t (2 : Fin 4) = win0_2.index t (2 : Fin 4)
    ∧ win0_0.index t (3 : Fin 4) = win0_2.index t (3 : Fin 4)
    ∧ win0_1.index t (0 : Fin 3) = win0_2.index t (1 : Fin 4)
    ∧ win0_1.index t (1 : Fin 3) = win0_2.index t (2 : Fin 4)
    ∧ win0_1.index t (2 : Fin 3) = win0_2.index t (3 : Fin 4)
    ∧ win0_2.index t (0 : Fin 4) ≤ 1 ∧ win0_2.index t (1 : Fin 4) ≤ 15
    ∧ win0_2.index t (2 : Fin 4) ≤ 3 ∧ win0_2.index t (3 : Fin 4) ≤ 3 :=
  (by decide +kernel : ∀ t : Fin grid0.N, _)

/-- The grid point with head `q1`, row tile `q2`, column tile `q3` and batch `q0` (the grid's points are numbered
    row-major over (head, row tile, column tile, batch)). -/
def pointOf (q0 : Fin 2) (q1 : Fin 16) (q2 : Fin 4) (q3 : Fin 4) : Fin grid0.N :=
  ⟨((q1.val * 4 + q2.val) * 4 + q3.val) * 2 + q0.val, by
    have h0 := q0.isLt; have h1 := q1.isLt; have h2 := q2.isLt; have h3 := q3.isLt
    show ((q1.val * 4 + q2.val) * 4 + q3.val) * 2 + q0.val < 512; omega⟩

/-- Every (batch, head, row tile, column tile) is that grid point's output tile: decided over the 512 tiles. -/
theorem tile_onto : ∀ (q0 : Fin 2) (q1 : Fin 16) (q2 : Fin 4) (q3 : Fin 4),
    win0_2.index (pointOf q0 q1 q2 q3) = ![q0.val, q1.val, q2.val, q3.val] := by
  decide +kernel

/-- What grid point `t` writes back is block `t` of the input scaled by the table, both as the region finds them. -/
theorem flushed_eq (c : Dev nD) (t : Fin cfg0.N) :
    (dats m 0 c).flushed 2 t
      = ((cfg0.win 2).blk t).view.read (Elt F) (scaled (V m c main_arg0) (V m c main_v18)) := by
  rw [Value.flushed2]
  obtain ⟨e0, e1, e2, e3, e4, e5, e6, -⟩ := tile_indices t
  funext j
  show out0_2 (iblk m c 0 t) (iblk m c 1 t) j = _
  rw [tile_product]
  show FloatOps.mulf (V m c main_arg0 (((cfg0.win 0).blk t).view.emb (Value.ix2_0 j)))
      (V m c main_v18 (((cfg0.win 1).blk t).view.emb (Value.ix2_1 j)))
    = FloatOps.mulf (V m c main_arg0 (((cfg0.win 2).blk t).view.emb j))
      (V m c main_v18 (tabIdx (((cfg0.win 2).blk t).view.emb j)))
  have hj0 : (j 0).val < 1 := (j 0).isLt
  have hj1 : (j 1).val < 1 := (j 1).isLt
  have hj2 : (j 2).val < 512 := (j 2).isLt
  have hj3 : (j 3).val < 512 := (j 3).isLt
  have h0 : ((cfg0.win 0).blk t).view.emb (Value.ix2_0 j) = ((cfg0.win 2).blk t).view.emb j := by
    funext a; apply Fin.ext
    match a with
    | ⟨0, _⟩ => show win0_0.index t (0 : Fin 4) * 1 + 1 * 0 = win0_2.index t (0 : Fin 4) * 1 + 1 * (j 0).val; omega
    | ⟨1, _⟩ => show win0_0.index t (1 : Fin 4) * 1 + 1 * 0 = win0_2.index t (1 : Fin 4) * 1 + 1 * (j 1).val; omega
    | ⟨2, _⟩ => show win0_0.index t (2 : Fin 4) * 512 + 1 * (j 2).val = win0_2.index t (2 : Fin 4) * 512 + 1 * (j 2).val; omega
    | ⟨3, _⟩ => show win0_0.index t (3 : Fin 4) * 512 + 1 * (j 3).val = win0_2.index t (3 : Fin 4) * 512 + 1 * (j 3).val; omega
  have h1 : ((cfg0.win 1).blk t).view.emb (Value.ix2_1 j) = tabIdx (((cfg0.win 2).blk t).view.emb j) := by
    funext a; apply Fin.ext
    match a with
    | ⟨0, _⟩ => show win0_1.index t (0 : Fin 3) * 1 + 1 * 0 = win0_2.index t (1 : Fin 4) * 1 + 1 * (j 1).val; omega
    | ⟨1, _⟩ => show win0_1.index t (1 : Fin 3) * 512 + 1 * (j 2).val = win0_2.index t (2 : Fin 4) * 512 + 1 * (j 2).val; omega
    | ⟨2, _⟩ => show win0_1.index t (2 : Fin 3) * 512 + 1 * (j 3).val = win0_2.index t (3 : Fin 4) * 512 + 1 * (j 3).val; omega
  rw [h0, h1]

/-- An index of the output is in point `t`'s tile iff each coordinate is in the tile's range on its axis. -/
theorem mem_tile (t : Fin cfg0.N) (i : S2x16x2048x2048.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v19).slice (win0_2.rect t)).set ↔ _
  rw [View.set_slice_whole, Rect.mem_set_unit]
  exact Iff.rfl

/-- Every index of the output lies in the tile of the point with its batch, its head, and its row and column
    divided by 512. -/
theorem covered (i : S2x16x2048x2048.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 2048 := (i 2).isLt
  have hi3 : (i 3).val < 2048 := (i 3).isLt
  have ht := tile_onto ⟨(i 0).val, by omega⟩ ⟨(i 1).val, by omega⟩ ⟨(i 2).val / 512, by omega⟩ ⟨(i 3).val / 512, by omega⟩
  generalize pointOf ⟨(i 0).val, by omega⟩ ⟨(i 1).val, by omega⟩ ⟨(i 2).val / 512, by omega⟩ ⟨(i 3).val / 512, by omega⟩ = t at ht
  have q0 : win0_2.index t (0 : Fin 4) = (i 0).val := congrFun ht 0
  have q1 : win0_2.index t (1 : Fin 4) = (i 1).val := congrFun ht 1
  have q2 : win0_2.index t (2 : Fin 4) = (i 2).val / 512 := congrFun ht 2
  have q3 : win0_2.index t (3 : Fin 4) = (i 3).val / 512 := congrFun ht 3
  refine ⟨t, flush0_2 t, ?_⟩
  rw [mem_tile]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- The output array after the run: the input scaled by the table, both as the region finds them. -/
theorem final (c : Dev nD) :
    (dats m 0 c).arrAt 2 cfg0.N = scaled (V m c main_arg0) (V m c main_v18) :=
  (dats m 0 c).arrAt_eq_of_cover 2 _ (fun t _ => flushed_eq m c t) covered

/-- The kernel's run with its result named: the launched input scaled by the table the host operations before the
    region leave in `main_v18`; the arguments end unchanged. -/
theorem run : θ_run defs (onTc (τ := τ) (main (F := F))) ⟨m, fun _ => 0, ρ⟩ fun r => ∀ c : Dev nD,
      r.2.mem ((c : Thread nD τ).loc main_v19)
        = scaled (m ((c : Thread nD τ).loc main_arg0)) (V m c main_v18)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0])), (h c).2⟩)
    (Value.run_blocks m ρ)

end Cert.KernelIdeal.Tiles

end
-- ==== Proof.RefLine.lean ====
/-
  The reference's run, read back.

  The reference is a straight line of host operations: forty-two of them build, from the weight array alone, the
  Toeplitz table of relative-position weights (two slices, a reversal and a concatenation lay the weights out as
  one row of 4095 values per head; an iota, broadcasts, a subtraction and a remainder — an outlined function, its
  operations listed here at its call — compute the position `(column − row) mod 4095` for each (row, column); a
  gather reads the row at that position), and three more broadcast the table over the batch and multiply the input
  by it.  The table's operations are kept as ONE fold (`tableOps`): the kernel's program builds its table by the
  same operations, and nothing here looks inside them.
-/
import proofs.«124580_j36807869726820_1_alg».proof.Proof.Gen.ReferenceIdeal
import proofs.«124580_j36807869726820_1_alg».proof.Proof.Spec
import Idealize.ShloMosaic.Lib.StableHlo.Run
import Idealize.ShloMosaic.Lib.Pipeline.Frame
import Idealize.ShloMosaic.Lib.Pipeline.Value

noncomputable section

namespace Cert.ReferenceIdeal.Line

open Cert.ReferenceIdeal Cert.ReferenceIdeal.Gen Idealize.ShloMosaic Idealize.ShloMosaic.TcCoe Idealize.SL.Sem Idealize.ShloMosaic.StableHlo
open Cert.Urpe (scaled tabIdx)

variable {F : FTy → Type} [FloatOps F]

/-- The forty-two operations that build the table (`main_v18`), in order, the remainder's inlined at its call. -/
abbrev tableOps : List (HloOp τ sig (Elt F)) :=
  [ unary main_arg1 main_v0 ((extractStridedSlice S16x2048 ![0, 0] · slices_S16x4096_S16x2048_0_0) : (⟨S16x4096, .f32⟩ : BufTy).Contents (Elt F) → (⟨S16x2048, .f32⟩ : BufTy).Contents (Elt F)),
    unary main_arg1 main_v1 ((extractStridedSlice S16x2048 ![0, 2048] · slices_S16x4096_S16x2048_0_2048) : (⟨S16x4096, .f32⟩ : BufTy).Contents (Elt F) → (⟨S16x2048, .f32⟩ : BufTy).Contents (Elt F)),
    unary main_v0 main_v2 ((extractStridedSlice S16x2047 ![0, 1] · slices_S16x2048_S16x2047_0_1) : (⟨S16x2048, .f32⟩ : BufTy).Contents (Elt F) → (⟨S16x2047, .f32⟩ : BufTy).Contents (Elt F)),
    unary main_v2 main_v3 (Host.reverse [1] : (⟨S16x2047, .f32⟩ : BufTy).Contents (Elt F) → (⟨S16x2047, .f32⟩ : BufTy).Contents (Elt F)),
    binary main_v1 main_v3 main_v4 ((fun a b => concatenate S16x4095 1 [⟨S16x2048, a⟩, ⟨S16x2047, b⟩] concatenates_S16x2048_S16x2047_S16x4095_d1) : (⟨S16x2048, .f32⟩ : BufTy).Contents (Elt F) → (⟨S16x2047, .f32⟩ : BufTy).Contents (Elt F) → (⟨S16x4095, .f32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v5 main_v7 (broadcastInDim S2048x1 ![0] bcast_S2048_S2048x1_0 : (⟨S2048, .i32⟩ : BufTy).Contents (Elt F) → (⟨S2048x1, .i32⟩ : BufTy).Contents (Elt F)),
    unary main_v6 main_v8 (broadcastInDim S2048x2048 ![0, 1] bcast_S1x2048_S2048x2048_0_1 : (⟨S1x2048, .i32⟩ : BufTy).Contents (Elt F) → (⟨S2048x2048, .i32⟩ : BufTy).Contents (Elt F)),
    unary main_v7 main_v9 (broadcastInDim S2048x2048 ![0, 1] bcast_S2048x1_S2048x2048_0_1 : (⟨S2048x1, .i32⟩ : BufTy).Contents (Elt F) → (⟨S2048x2048, .i32⟩ : BufTy).Contents (Elt F)),
    binary main_v8 main_v9 main_v10 (subi : (⟨S2048x2048, .i32⟩ : BufTy).Contents (Elt F) → (⟨S2048x2048, .i32⟩ : BufTy).Contents (Elt F) → (⟨S2048x2048, .i32⟩ : BufTy).Contents (Elt F)),
    nullary main_c (constantI S_ 32 4095#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2048x2048 ![] bcast_S_S2048x2048),
    TRef.binary (.of main_v10) main_call0.v3 main_call0.v4 Host.remsi,
    TRef.nullary main_call0.c_1 (constantI S_ 32 0#32),
    TRef.unary main_call0.c_1 main_call0.v5 (broadcastInDim S2048x2048 ![] bcast_S_S2048x2048),
    TRef.binary main_call0.v4 main_call0.v5 main_call0.v6 (cmpi .ne),
    TRef.nullary main_call0.c_2 (constantI S_ 32 0#32),
    TRef.unary main_call0.c_2 main_call0.v7 (broadcastInDim S2048x2048 ![] bcast_S_S2048x2048),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2048x2048 ![] bcast_S_S2048x2048),
    TRef.binary main_call0.v8 main_call0.v10 main_call0.v11 (cmpi .ne),
    TRef.binary main_call0.v11 main_call0.v6 main_call0.v12 andi,
    TRef.unary main_call0.call0.v0 main_call0.v13 (broadcastInDim S2048x2048 ![] bcast_S_S2048x2048),
    TRef.binary main_call0.v4 main_call0.v13 main_call0.v14 addi,
    TRef.ternary main_call0.v12 main_call0.v14 main_call0.v4 main_call0.v15 select,
    nullary main_c_0 (constantI S_ 32 0#32),
    unary main_c_0 main_v12 (broadcastInDim S2048x2048 ![] bcast_S_S2048x2048 : (⟨S_, .i32⟩ : BufTy).Contents (Elt F) → (⟨S2048x2048, .i32⟩ : BufTy).Contents (Elt F)),
    binary main_v11 main_v12 main_v13 (cmpi .slt : (⟨S2048x2048, .i32⟩ : BufTy).Contents (Elt F) → (⟨S2048x2048, .i32⟩ : BufTy).Contents (Elt F) → (⟨S2048x2048, .i1⟩ : BufTy).Contents (Elt F)),
    nullary main_c_1 (constantI S_ 32 4095#32),
    unary main_c_1 main_v14 (broadcastInDim S2048x2048 ![] bcast_S_S2048x2048 : (⟨S_, .i32⟩ : BufTy).Contents (Elt F) → (⟨S2048x2048, .i32⟩ : BufTy).Contents (Elt F)),
    binary main_v11 main_v14 main_v15 (addi : (⟨S2048x2048, .i32⟩ : BufTy).Contents (Elt F) → (⟨S2048x2048, .i32⟩ : BufTy).Contents (Elt F) → (⟨S2048x2048, .i32⟩ : BufTy).Contents (Elt F)),
    ternary main_v13 main_v15 main_v11 main_v16 (select : (⟨S2048x2048, .i1⟩ : BufTy).Contents (Elt F) → (⟨S2048x2048, .i32⟩ : BufTy).Contents (Elt F) → (⟨S2048x2048, .i32⟩ : BufTy).Contents (Elt F) → (⟨S2048x2048, .i32⟩ : BufTy).Contents (Elt F)),
    unary main_v16 main_v17 (broadcastInDim S2048x2048x1 ![0, 1] bcast_S2048x2048_S2048x2048x1_0_1 : (⟨S2048x2048, .i32⟩ : BufTy).Contents (Elt F) → (⟨S2048x2048x1, .i32⟩ : BufTy).Contents (Elt F)),
    binary main_v4 main_v17 main_v18 ((fun x i => Host.gather gather_S16x4095_S2048x2048x1_S16x2048x2048_0_1_n_n_1_2_161 x i) : (⟨S16x4095, .f32⟩ : BufTy).Contents (Elt F) → (⟨S2048x2048x1, .i32⟩ : BufTy).Contents (Elt F) → (⟨S16x2048x2048, .f32⟩ : BufTy).Contents (Elt F)) ]

/-- The three operations after the table: its broadcast over a unit batch axis, then over the batch, and the product. -/
abbrev tailOps : List (HloOp τ sig (Elt F)) :=
  [ unary main_v18 main_v19 (broadcastInDim S1x16x2048x2048 ![1, 2, 3] bcast_S16x2048x2048_S1x16x2048x2048_1_2_3 : (⟨S16x2048x2048, .f32⟩ : BufTy).Contents (Elt F) → (⟨S1x16x2048x2048, .f32⟩ : BufTy).Contents (Elt F)),
    unary main_v19 main_v20 (broadcastInDim S2x16x2048x2048 ![0, 1, 2, 3] bcast_S1x16x2048x2048_S2x16x2048x2048_0_1_2_3 : (⟨S1x16x2048x2048, .f32⟩ : BufTy).Contents (Elt F) → (⟨S2x16x2048x2048, .f32⟩ : BufTy).Contents (Elt F)),
    binary main_arg0 main_v20 main_v21 (mulf : (⟨S2x16x2048x2048, .f32⟩ : BufTy).Contents (Elt F) → (⟨S2x16x2048x2048, .f32⟩ : BufTy).Contents (Elt F) → (⟨S2x16x2048x2048, .f32⟩ : BufTy).Contents (Elt F)) ]

/-- @main's forty-five operations, in order. -/
abbrev ops : List (HloOp τ sig (Elt F)) :=
  [ unary main_arg1 main_v0 ((extractStridedSlice S16x2048 ![0, 0] · slices_S16x4096_S16x2048_0_0) : (⟨S16x4096, .f32⟩ : BufTy).Contents (Elt F) → (⟨S16x2048, .f32⟩ : BufTy).Contents (Elt F)),
    unary main_arg1 main_v1 ((extractStridedSlice S16x2048 ![0, 2048] · slices_S16x4096_S16x2048_0_2048) : (⟨S16x4096, .f32⟩ : BufTy).Contents (Elt F) → (⟨S16x2048, .f32⟩ : BufTy).Contents (Elt F)),
    unary main_v0 main_v2 ((extractStridedSlice S16x2047 ![0, 1] · slices_S16x2048_S16x2047_0_1) : (⟨S16x2048, .f32⟩ : BufTy).Contents (Elt F) → (⟨S16x2047, .f32⟩ : BufTy).Contents (Elt F)),
    unary main_v2 main_v3 (Host.reverse [1] : (⟨S16x2047, .f32⟩ : BufTy).Contents (Elt F) → (⟨S16x2047, .f32⟩ : BufTy).Contents (Elt F)),
    binary main_v1 main_v3 main_v4 ((fun a b => concatenate S16x4095 1 [⟨S16x2048, a⟩, ⟨S16x2047, b⟩] concatenates_S16x2048_S16x2047_S16x4095_d1) : (⟨S16x2048, .f32⟩ : BufTy).Contents (Elt F) → (⟨S16x2047, .f32⟩ : BufTy).Contents (Elt F) → (⟨S16x4095, .f32⟩ : BufTy).Contents (Elt F)),
    nullary main_v5 (iotaInDim S2048 32 0),
    unary main_v5 main_v6 (broadcastInDim S1x2048 ![1] bcast_S2048_S1x2048_1 : (⟨S2048, .i32⟩ : BufTy).Contents (Elt F) → (⟨S1x2048, .i32⟩ : BufTy).Contents (Elt F)),
    unary main_v5 main_v7 (broadcastInDim S2048x1 ![0] bcast_S2048_S2048x1_0 : (⟨S2048, .i32⟩ : BufTy).Contents (Elt F) → (⟨S2048x1, .i32⟩ : BufTy).Contents (Elt F)),
    unary main_v6 main_v8 (broadcastInDim S2048x2048 ![0, 1] bcast_S1x2048_S2048x2048_0_1 : (⟨S1x2048, .i32⟩ : BufTy).Contents (Elt F) → (⟨S2048x2048, .i32⟩ : BufTy).Contents (Elt F)),
    unary main_v7 main_v9 (broadcastInDim S2048x2048 ![0, 1] bcast_S2048x1_S2048x2048_0_1 : (⟨S2048x1, .i32⟩ : BufTy).Contents (Elt F) → (⟨S2048x2048, .i32⟩ : BufTy).Contents (Elt F)),
    binary main_v8 main_v9 main_v10 (subi : (⟨S2048x2048, .i32⟩ : BufTy).Contents (Elt F) → (⟨S2048x2048, .i32⟩ : BufTy).Contents (Elt F) → (⟨S2048x2048, .i32⟩ : BufTy).Contents (Elt F)),
    nullary main_c (constantI S_ 32 4095#32),
    TRef.unary (.of main_c) main_call0.v0 id,
    TRef.nullary main_call0.c (constantI S_ 32 0#32),
    TRef.binary main_call0.v0 main_call0.c main_call0.v1 (cmpi .eq),
    TRef.nullary main_call0.c_0 (constantI S_ 32 1#32),
    TRef.ternary main_call0.v1 main_call0.c_0 main_call0.v0 main_call0.call0.v0 select,
    TRef.unary main_call0.call0.v0 main_call0.v3 (broadcastInDim S2048x2048 ![] bcast_S_S2048x2048),
    TRef.binary (.of main_v10) main_call0.v3 main_call0.v4 Host.remsi,
    TRef.nullary main_call0.c_1 (constantI S_ 32 0#32),
    TRef.unary main_call0.c_1 main_call0.v5 (broadcastInDim S2048x2048 ![] bcast_S_S2048x2048),
    TRef.binary main_call0.v4 main_call0.v5 main_call0.v6 (cmpi .ne),
    TRef.nullary main_call0.c_2 (constantI S_ 32 0#32),
    TRef.unary main_call0.c_2 main_call0.v7 (broadcastInDim S2048x2048 ![] bcast_S_S2048x2048),
    TRef.binary main_call0.v4 main_call0.v7 main_call0.v8 (cmpi .slt),
    TRef.nullary main_call0.c_3 (constantI S_ 32 0#32),
    TRef.binary main_call0.call0.v0 main_call0.c_3 main_call0.v9 (cmpi .slt),
    TRef.unary main_call0.v9 main_call0.v10 (broadcastInDim S2048x2048 ![] bcast_S_S2048x2048),
    TRef.binary main_call0.v8 main_call0.v10 main_call0.v11 (cmpi .ne),
    TRef.binary main_call0.v11 main_call0.v6 main_call0.v12 andi,
    TRef.unary main_call0.call0.v0 main_call0.v13 (broadcastInDim S2048x2048 ![] bcast_S_S2048x2048),
    TRef.binary main_call0.v4 main_call0.v13 main_call0.v14 addi,
    TRef.ternary main_call0.v12 main_call0.v14 main_call0.v4 main_call0.v15 select,
    nullary main_c_0 (constantI S_ 32 0#32),
    unary main_c_0 main_v12 (broadcastInDim S2048x2048 ![] bcast_S_S2048x2048 : (⟨S_, .i32⟩ : BufTy).Contents (Elt F) → (⟨S2048x2048, .i32⟩ : BufTy).Contents (Elt F)),
    binary main_v11 main_v12 main_v13 (cmpi .slt : (⟨S2048x2048, .i32⟩ : BufTy).Contents (Elt F) → (⟨S2048x2048, .i32⟩ : BufTy).Contents (Elt F) → (⟨S2048x2048, .i1⟩ : BufTy).Contents (Elt F)),
    nullary main_c_1 (constantI S_ 32 4095#32),
    unary main_c_1 main_v14 (broadcastInDim S2048x2048 ![] bcast_S_S2048x2048 : (⟨S_, .i32⟩ : BufTy).Contents (Elt F) → (⟨S2048x2048, .i32⟩ : BufTy).Contents (Elt F)),
    binary main_v11 main_v14 main_v15 (addi : (⟨S2048x2048, .i32⟩ : BufTy).Contents (Elt F) → (⟨S2048x2048, .i32⟩ : BufTy).Contents (Elt F) → (⟨S2048x2048, .i32⟩ : BufTy).Contents (Elt F)),
    ternary main_v13 main_v15 main_v11 main_v16 (select : (⟨S2048x2048, .i1⟩ : BufTy).Contents (Elt F) → (⟨S2048x2048, .i32⟩ : BufTy).Contents (Elt F) → (⟨S2048x2048, .i32⟩ : BufTy).Contents (Elt F) → (⟨S2048x2048, .i32⟩ : BufTy).Contents (Elt F)),
    unary main_v16 main_v17 (broadcastInDim S2048x2048x1 ![0, 1] bcast_S2048x2048_S2048x2048x1_0_1 : (⟨S2048x2048, .i32⟩ : BufTy).Contents (Elt F) → (⟨S2048x2048x1, .i32⟩ : BufTy).Contents (Elt F)),
    binary main_v4 main_v17 main_v18 ((fun x i => Host.gather gather_S16x4095_S2048x2048x1_S16x2048x2048_0_1_n_n_1_2_161 x i) : (⟨S16x4095, .f32⟩ : BufTy).Contents (Elt F) → (⟨S2048x2048x1, .i32⟩ : BufTy).Contents (Elt F) → (⟨S16x2048x2048, .f32⟩ : BufTy).Contents (Elt F)),
    unary main_v18 main_v19 (broadcastInDim S1x16x2048x2048 ![1, 2, 3] bcast_S16x2048x2048_S1x16x2048x2048_1_2_3 : (⟨S16x2048x2048, .f32⟩ : BufTy).Contents (Elt F) → (⟨S1x16x2048x2048, .f32⟩ : BufTy).Contents (Elt F)),
    unary main_v19 main_v20 (broadcastInDim S2x16x2048x2048 ![0, 1, 2, 3] bcast_S1x16x2048x2048_S2x16x2048x2048_0_1_2_3 : (⟨S1x16x2048x2048, .f32⟩ : BufTy).Contents (Elt F) → (⟨S2x16x2048x2048, .f32⟩ : BufTy).Contents (Elt F)),
    binary main_arg0 main_v20 main_v21 (mulf : (⟨S2x16x2048x2048, .f32⟩ : BufTy).Contents (Elt F) → (⟨S2x16x2048x2048, .f32⟩ : BufTy).Contents (Elt F) → (⟨S2x16x2048x2048, .f32⟩ : BufTy).Contents (Elt F)) ]

theorem ops_eq : (ops : List (HloOp τ sig (Elt F))) = tableOps ++ tailOps := rfl

set_option maxRecDepth 4096 in
/-- @main is that straight line: the outlined functions unfolded at their calls and sequencing reassociated. -/
theorem main_eq (c : Dev nD) : main (F := F) c = seq ops := by
  simp only [main, fn_remainder.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., unary_bufs_sub .., unary_bufs_sub .., unary_bufs_sub .., binary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub ..⟩

/-- Every buffer after the run is the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The result, read: the input scaled by the table -/

/-- A table broadcast over a unit batch axis and then over the batch, multiplied into an array entry by entry, is
    the array scaled by the table: the product at (b, h, r, s) reads the table at (h, r, s). -/
theorem product_eq (a : FVec F S2x16x2048x2048 .f32) (T : FVec F S16x2048x2048 .f32) :
    mulf a (broadcastInDim S2x16x2048x2048 ![0, 1, 2, 3] bcast_S1x16x2048x2048_S2x16x2048x2048_0_1_2_3
      (broadcastInDim S1x16x2048x2048 ![1, 2, 3] bcast_S16x2048x2048_S1x16x2048x2048_1_2_3 T)) = scaled a T := by
  funext i
  have hi1 : (i 1).val < 16 := (i 1).isLt
  have hi2 : (i 2).val < 2048 := (i 2).isLt
  have hi3 : (i 3).val < 2048 := (i 3).isLt
  show FloatOps.mulf (a i) _ = FloatOps.mulf (a i) (T (tabIdx i))
  refine congrArg (FloatOps.mulf (a i)) ?_
  refine (broadcastInDim_apply _ _ _ i (fun a => match a with
      | ⟨0, _⟩ => ⟨0, by show 0 < 1; omega⟩
      | ⟨1, _⟩ => ⟨(i 1).val, by show (i 1).val < 16; omega⟩
      | ⟨2, _⟩ => ⟨(i 2).val, by show (i 2).val < 2048; omega⟩
      | ⟨3, _⟩ => ⟨(i 3).val, by show (i 3).val < 2048; omega⟩ : S1x16x2048x2048.Idx)
    (fun a => match a with | ⟨0, _⟩ => rfl | ⟨1, _⟩ => rfl | ⟨2, _⟩ => rfl | ⟨3, _⟩ => rfl)).trans ?_
  exact broadcastInDim_apply _ _ T _ (tabIdx i)
    (fun a => match a with | ⟨0, _⟩ => rfl | ⟨1, _⟩ => rfl | ⟨2, _⟩ => rfl)

/-- After the table's operations the input array is as before them: none of them writes it. -/
theorem table_keeps_input (V : Valuation τ sig (Elt F)) :
    after tableOps V (Proc.devRef .tc main_arg0) = V (Proc.devRef .tc main_arg0) := by
  after_results_simp

/-- The last three operations leave, in the result buffer, the input multiplied by the twice-broadcast table. -/
theorem tail_result (W : Valuation τ sig (Elt F)) :
    after tailOps W (Proc.devRef .tc main_v21)
      = mulf (W (Proc.devRef .tc main_arg0)) (broadcastInDim S2x16x2048x2048 ![0, 1, 2, 3] bcast_S1x16x2048x2048_S2x16x2048x2048_0_1_2_3
          (broadcastInDim S1x16x2048x2048 ![1, 2, 3] bcast_S16x2048x2048_S1x16x2048x2048_1_2_3 (W (Proc.devRef .tc main_v18)))) := by
  after_results

/-- The table the reference builds from launch contents `V`: the fold of its forty-two operations, read at `main_v18`. -/
abbrev table (V : Valuation τ sig (Elt F)) : FVec F S16x2048x2048 .f32 :=
  after tableOps V (Proc.devRef .tc main_v18)

/-- The whole line's result is the launched input scaled by that table. -/
theorem result_eq (V : Valuation τ sig (Elt F)) :
    after ops V (Proc.devRef .tc main_v21) = scaled (V (Proc.devRef .tc main_arg0)) (table V) := by
  show _ = scaled (V (Proc.devRef .tc main_arg0)) (after tableOps V (Proc.devRef .tc main_v18))
  rw [ops_eq, StableHlo.after_append]
  have h0 := table_keeps_input V
  generalize after tableOps V = W at h0 ⊢
  rw [tail_result, h0]
  exact product_eq _ _

theorem keeps_arg0 (V : Valuation τ sig (Elt F)) : after ops V (Proc.devRef .tc main_arg0) = V (Proc.devRef .tc main_arg0) := by
  after_results_simp
theorem keeps_arg1 (V : Valuation τ sig (Elt F)) : after ops V (Proc.devRef .tc main_arg1) = V (Proc.devRef .tc main_arg1) := by
  after_results_simp

/-- The reference's run with its result named: every weakly fair execution terminates with the result buffer at
    the launched input scaled by the table built from the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = scaled (m ((c.tc : Thread nD τ).loc main_arg0)) (table (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (result_eq _),
      (h c main_arg0).trans (keeps_arg0 _),
      (h c main_arg1).trans (keeps_arg1 _)⟩)
    (run_fold m ρ)

end Cert.ReferenceIdeal.Line

end
-- ==== Proof.SameTable.lean ====
/-
  The two programs build the same table.

  The kernel's program computes its table of relative-position weights on the host, before the region, by the
  same operations as the reference (the reversal and the remainder are outlined functions there, inlined here and
  there at their calls): slices, a reversal and a concatenation of the weight array, the positions
  `(column − row) mod 4095`, and a gather.  Unrolling both folds leaves the same composed term of the weight array
  on both sides, which is never opened.
-/
import proofs.«124580_j36807869726820_1_alg».proof.Proof.Gen.KernelIdeal.Frame
import proofs.«124580_j36807869726820_1_alg».proof.Proof.RefLine

noncomputable section

namespace Cert.Urpe

open Idealize.ShloMosaic Idealize.ShloMosaic.TcCoe Idealize.SL.Sem Idealize.ShloMosaic.StableHlo

variable {F : FTy → Type} [FloatOps F]

set_option maxRecDepth 8192 in
/-- From launch memories that agree on the weight array, the table the reference builds is the table the kernel's
    region finds in `main_v18`. -/
theorem same_table (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ)
    (c : Dev Cert.KernelIdeal.nD)
    (hw : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    Cert.ReferenceIdeal.Line.table (launchContents m' c)
      = Cert.KernelIdeal.Gen.V m c Cert.KernelIdeal.main_v18 := by
  -- both tables are folds of host operations over the launch contents: unroll them to the operations' composed terms
  dsimp only [Cert.ReferenceIdeal.Line.table, Cert.KernelIdeal.Gen.V]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil,
    List.append_nil, List.cons_append, List.nil_append]
  after_results_simp
  -- the two pieces of the concatenation (the last 2048 weights; the reversed first weights without the first one) likewise
  repeat (first
    | rw [nullary_result] | rw [unary_result] | rw [binary_result] | rw [ternary_result]
    | (rw [nullary_result_ne]; rotate_left; decide)
    | (rw [unary_result_ne]; rotate_left; decide)
    | (rw [binary_result_ne]; rotate_left; decide)
    | (rw [ternary_result_ne]; rotate_left; decide))
  -- the same term of the weight arrays, which agree
  have hw' : launchContents m' c (Proc.devRef .tc Cert.ReferenceIdeal.main_arg1)
      = m (c, Proc.devRef .tc Cert.KernelIdeal.main_arg1) := hw
  rw [hw']
  rfl

end Cert.Urpe

end
-- ==== Proof.lean ====
/-
  The certificate of a relative-position scaling of attention probabilities.

  Both programs take attention probabilities `a` of shape (batch 2, heads 16, 2048, 2048) and a weight array `w` of
  shape (16, 4096).  From `w` alone they build a Toeplitz table `T` of shape (16, 2048, 2048): with `c` the first
  2048 weights of a head and `r` the last 2048, the row `vals = r ++ reverse (c[1:])` of 4095 values is read at
  position `(column − row) mod 4095`.  The result is `a` scaled by the table, `a (b, h, i, j) · T (h, i, j)`.

  The reference does all of it on the host.  The kernel's program builds the table on the host by the same
  operations and multiplies inside a pipelined kernel over 512 × 512 tiles, one grid point per (head, row tile,
  column tile, batch).  So the proof has three parts: the kernel's tiles assemble to `a` scaled by the table its
  region finds (Proof/KernelBlocks.lean); the reference's result is `a` scaled by the table it builds
  (Proof/RefLine.lean); and the two tables are the same composed term of `w` (Proof/SameTable.lean), never opened.
  No law of arithmetic is used, so the finiteness of the inputs is not needed.
-/
import proofs.«124580_j36807869726820_1_alg».proof.Defs
import proofs.«124580_j36807869726820_1_alg».proof.Proof.Gen.Kernel
import proofs.«124580_j36807869726820_1_alg».proof.Proof.Gen.Kernel.Skeleton
import proofs.«124580_j36807869726820_1_alg».proof.Proof.Gen.Kernel.Launch
import proofs.«124580_j36807869726820_1_alg».proof.Proof.Gen.Kernel.Points
import proofs.«124580_j36807869726820_1_alg».proof.Proof.Gen.Kernel.Frame
import proofs.«124580_j36807869726820_1_alg».proof.Proof.Gen.KernelIdeal
import proofs.«124580_j36807869726820_1_alg».proof.Proof.Gen.KernelIdeal.Skeleton
import proofs.«124580_j36807869726820_1_alg».proof.Proof.Gen.KernelIdeal.Launch
import proofs.«124580_j36807869726820_1_alg».proof.Proof.Gen.KernelIdeal.Points
import proofs.«124580_j36807869726820_1_alg».proof.Proof.Gen.KernelIdeal.Frame
import proofs.«124580_j36807869726820_1_alg».proof.Proof.Gen.KernelIdeal.Value
import proofs.«124580_j36807869726820_1_alg».proof.Proof.Gen.ReferenceIdeal
import proofs.«124580_j36807869726820_1_alg».proof.Proof.Gen.Pre_finite_inputs
import proofs.«124580_j36807869726820_1_alg».proof.Proof.KernelBlocks
import proofs.«124580_j36807869726820_1_alg».proof.Proof.RefLine
import proofs.«124580_j36807869726820_1_alg».proof.Proof.SameTable
import Idealize.ShloMosaic.Adequacy
import Idealize.ShloMosaic.Init

noncomputable section

namespace Cert.Proof

open Idealize.ShloMosaic Idealize.SL.Sem

/-- The word-level kernel runs and leaves its arguments unchanged: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Line.run (F := Ideal) m ρ)

/-- The ideal pass rewrote nothing. -/
theorem preserves : Cert.preserves_Kernel_KernelIdeal := trivial

/-- From memories that agree on both arguments the two programs end with the same result: the input scaled by the
    table — the kernel's from its tiles, the reference's from its last three operations — and the tables agree
    because the weight arrays do. -/
theorem algebraic : Cert.algebraic_KernelIdeal_ReferenceIdeal := by
  intro m ρ m' ρ' _ hagree
  refine ⟨fun c => Cert.Urpe.scaled (m ((c.tc : Thread Cert.KernelIdeal.nD Cert.KernelIdeal.τ).loc Cert.KernelIdeal.main_arg0))
    (Cert.KernelIdeal.Gen.V m c Cert.KernelIdeal.main_v18), Cert.KernelIdeal.Tiles.run (F := Ideal) m ρ, ?_⟩
  refine (θ_run Cert.ReferenceIdeal.defs _ _).mono (fun _ h c => ⟨(h c).1.trans ?_, (h c).2⟩)
    (Cert.ReferenceIdeal.Line.run (F := Ideal) m' ρ')
  rw [(hagree c).1, Cert.Urpe.same_table m m' c (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
